-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1605632 : Shape := ⟨1, ![1605632]⟩
abbrev S1605632x64 : Shape := ⟨2, ![1605632, 64]⟩
abbrev S16384 : Shape := ⟨1, ![16384]⟩
abbrev S16384x64 : Shape := ⟨2, ![16384, 64]⟩
abbrev S16384x1 : Shape := ⟨2, ![16384, 1]⟩
abbrev S1605632x1 : Shape := ⟨2, ![1605632, 1]⟩
abbrev S100000x1 : Shape := ⟨2, ![100000, 1]⟩
abbrev S1x64 : Shape := ⟨2, ![1, 64]⟩
abbrev S5000x1 : Shape := ⟨2, ![5000, 1]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S1600000, .i1⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .i32⟩
  | .hbm, ⟨51, _⟩ => ⟨S_, .f32⟩
  | .hbm, ⟨52, _⟩ => ⟨S1605632, .f32⟩
  | .hbm, ⟨53, _⟩ => ⟨S_, .i32⟩
  | .hbm, ⟨54, _⟩ => ⟨S_, .f32⟩
  | .hbm, ⟨55, _⟩ => ⟨S1605632x64, .f32⟩
  | .hbm, ⟨56, _⟩ => ⟨S_, .i32⟩
  | .hbm, ⟨57, _⟩ => ⟨S_, .i32⟩
  | .hbm, ⟨58, _⟩ => ⟨S1605632, .i32⟩
  | .hbm, ⟨59, _⟩ => ⟨S1605632x64, .f32⟩
  | .hbm, ⟨60, _⟩ => ⟨S_, .f32⟩
  | .hbm, ⟨61, _⟩ => ⟨S100000x64, .f32⟩
  | .hbm, ⟨62, _⟩ => ⟨S1605632x1, .i32⟩
  | .hbm, ⟨63, _⟩ => ⟨S100000x64, .f32⟩
  | .hbm, ⟨64, _⟩ => ⟨S100000x1, .f32⟩
  | .hbm, ⟨65, _⟩ => ⟨S1x64, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S16384, .f32⟩
  | .local _ .vmem, ⟨6, _⟩ => ⟨S16384, .f32⟩
  | .local _ .vmem, ⟨7, _⟩ => ⟨S16384x64, .f32⟩
  | .local _ .vmem, ⟨8, _⟩ => ⟨S16384x64, .f32⟩
  | .local _ .vmem, ⟨9, _⟩ => ⟨S16384x64, .f32⟩
  | .local _ .vmem, ⟨10, _⟩ => ⟨S16384x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_call1_v0 : Ref sig .tc := ⟨.hbm, 51, rfl⟩
abbrev main_v36 : Ref sig .tc := ⟨.hbm, 52, rfl⟩
abbrev main_c_9 : Ref sig .tc := ⟨.hbm, 53, rfl⟩
abbrev main_call2_v0 : Ref sig .tc := ⟨.hbm, 54, rfl⟩
abbrev main_v37 : Ref sig .tc := ⟨.hbm, 55, rfl⟩
abbrev main_c_10 : Ref sig .tc := ⟨.hbm, 56, rfl⟩
abbrev main_call3_v0 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![98], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  pads_S1600000_S1605632_056320 : S1600000.Pads (![0] : Fin 1 → Nat) ![5632] ![0] S1605632
  h_S_ : 0 < S_.numel
  pads_S1600000x64_S1605632x64_056320_000 : S1600000x64.Pads (![0, 0] : Fin 2 → Nat) ![5632, 0] ![0, 0] S1605632x64
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  shapeCasts_S16384x1_S16384x1 : S16384x1.ShapeCasts S16384x1
  broadcasts_S16384x1_S16384x64 : S16384x1.Broadcasts S16384x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  bcast_S_S100000x64 : S_.BroadcastsInDim S100000x64 (![] : Fin 0 → Fin S100000x64.rank)
  bcast_S1605632_S1605632x1_0 : S1605632.BroadcastsInDim S1605632x1 (![0] : Fin 1 → Fin S1605632x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1605632x1_S1605632x64_1_0_0_1_wf : ScatterDims.WF S100000x64 S1605632x1 S1605632x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384.size a ≤ S1605632.size a
  hwx1_0 : ∀ i : grid1.Coords, EltTy.bits .f32 = 32 ∨ (Rect.block (s := S1605632) S16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S1605632x64.size a
  hwx1_1 : ∀ i : grid1.Coords, EltTy.bits .f32 = 32 ∨ (Rect.block (s := S1605632x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x64.size a ≤ S1605632x64.size a
  hwx1_2 : ∀ i : grid1.Coords, EltTy.bits .f32 = 32 ∨ (Rect.block (s := S1605632x64) S16384x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1605632x1_S1605632x64_1_0_0_1 : ScatterDims S100000x64 S1605632x1 S1605632x64 where
  updateWindowDims := [1]
  insertedWindowDims := [0]
  scatterDimsToOperandDims := [0]
  indexVectorDim := 1
  wf := scatter_S100000x64_S1605632x1_S1605632x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S16384x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S1600000, .i1⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S100000x64, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result kept.  The program is three kernel regions among stretches of host
  operations; run from any memory, every weakly fair execution ends, nothing faults, and every buffer that outlives
  the program ends at the contents the last boundary of that chain of stretches and regions names.  Read at the
  result buffer this says what the program returns; read at the argument buffers, that they are unchanged.
-/
import proofs.«122281_j4440996184785_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the contents the
    last region leaves in it and with the four arguments as they were. -/
theorem run : θ_run defs (onTc (τ := τ) (main (F := F))) ⟨m, fun _ => 0, ρ⟩ (fun r => ∀ c : Dev nD,
      r.2.mem ((c.tc : Thread nD τ).loc main_v45) = W12 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v45 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.KernelIdeal.KernelRun

end
-- ==== Proof.Coords.lean ====
/-
  Coordinates of rank-2 indices as plain numbers below the extents, and the all-zero offsets of whole-block
  rectangles.
-/
import Idealize.ShloMosaic.Lib.ValueIdx

namespace Cert.Coords

open Idealize.ShloMosaic Idealize.ShloMosaic.ValueIdx

/-- The row of a rank-2 index. -/
abbrev row2 {M N : Nat} (j : (⟨2, ![M, N]⟩ : Shape).Idx) : Fin M := ⟨(j 0).val, (j 0).isLt⟩
/-- The column of a rank-2 index. -/
abbrev col2 {M N : Nat} (j : (⟨2, ![M, N]⟩ : Shape).Idx) : Fin N := ⟨(j 1).val, (j 1).isLt⟩

theorem eq_ix2_rc {M N : Nat} (j : (⟨2, ![M, N]⟩ : Shape).Idx) : j = ix2 (row2 j) (col2 j) := by
  funext a; match a with | ⟨0, _⟩ => rfl | ⟨1, _⟩ => rfl

theorem row2_ix2 {M N : Nat} (r : Fin M) (k : Fin N) : row2 (ix2 r k) = r := rfl
theorem col2_ix2 {M N : Nat} (r : Fin M) (k : Fin N) : col2 (ix2 r k) = k := rfl

theorem zeros1 : (![0] : Fin 1 → Nat) = fun _ => 0 := funext fun a => by fin_cases a; rfl
theorem zeros2 : (![0, 0] : Fin 2 → Nat) = fun _ => 0 := funext fun a => by fin_cases a <;> rfl

end Cert.Coords
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.EdgeScale.lean ====
/-
  The second kernel region: over the padded edge list, row e of the looked-up features is multiplied by edge e's
  weight.  A grid point handles 16384 consecutive edges; its weight block is the same stretch of the weight vector
  and its feature block the same rows of the feature array, so the array the region leaves is, entry by entry,
  weight(e) · feature(e, k), whatever the two input arrays hold when the region is entered.
-/
import proofs.«122281_j4440996184785_1_alg».proof.Proof.Gen.KernelIdeal.Frame
import proofs.«122281_j4440996184785_1_alg».proof.Proof.Coords
import proofs.«122281_j4440996184785_1_alg».proof.Proof.LibColumn
import Idealize.ShloMosaic.Lib.Pipeline.Value
import Idealize.ShloMosaic.Lib.ValueIdx
set_option maxRecDepth 16384

noncomputable section

namespace Cert.KernelIdeal.EdgeScale

open Idealize.ShloMosaic Idealize.ShloMosaic.TcCoe Idealize.ShloMosaic.ValueIdx Idealize.SL.Sem
open Idealize.ShloMosaic.Pipeline (Dat)
open Cert.KernelIdeal Cert.KernelIdeal.Gen Cert.Coords

/-- Edge e's weight times entry (e, k) of the features. -/
def scaled (wt : S1605632.Idx → EReal) (ft : S1605632x64.Idx → EReal) : S1605632x64.Idx → EReal :=
  fun i => wt (ix1 (row2 i)) * ft i

/-- The body's product at one entry of the block: the weight of the block's row times the feature there. -/
theorem pay_apply (w : Vec Ideal S16384 .f32) (h : Vec Ideal S16384x64 .f32) (p : Fin 16384) (q : Fin 64) :
    k1_pay1 w h (ix2 p q) = w (ix1 p) * h (ix2 p q) := by
  unfold k1_pay1
  simp only [shapeCast_self]
  rw [mulf_apply, Cert.Splat.Column.broadcastTo_a1_ab_apply, Cert.Splat.Column.shapeCast_a_a1_apply]

theorem pay_at (w : Vec Ideal S16384 .f32) (h : Vec Ideal S16384x64 .f32) (y : S16384x64.Idx) :
    k1_pay1 w h y = w (ix1 (row2 y)) * h y := by
  obtain ⟨p, q, rfl⟩ : ∃ (p : Fin 16384) (q : Fin 64), y = ix2 p q := ⟨row2 y, col2 y, eq_ix2_rc y⟩
  exact pay_apply w h p q

/-- The three windows move together: at a grid point each is at the block whose number is the point's. -/
theorem idx_facts : ∀ t : Fin cfg1.N, win1_0.index t (0 : Fin 1) = win1_2.index t (0 : Fin 2)
    ∧ win1_1.index t (0 : Fin 2) = win1_2.index t (0 : Fin 2)
    ∧ win1_1.index t (1 : Fin 2) = win1_2.index t (1 : Fin 2)
    ∧ win1_2.index t (0 : Fin 2) ≤ 97
    ∧ win1_2.index t (1 : Fin 2) = 0 :=
  (by decide +kernel : ∀ t : Fin grid1.N, _)

/-- Every block of rows is some grid point's. -/
theorem idx_onto : ∀ q0 : Fin 98, ∃ t : Fin cfg1.N, win1_2.index t = ![q0.val, 0] :=
  (by decide +kernel : ∀ q0 : Fin 98, ∃ t : Fin grid1.N, win1_2.index t = ![q0.val, 0])

variable (V : (c : Dev nD) → (b : Ref sig .tc) → Buf (Elt Ideal) ((c : Thread nD τ).loc b))

/-- What a grid point writes back is its block of the entrywise product of the two arrays as the region finds them. -/
theorem flushed_eq (c : Dev nD) (t : Fin cfg1.N) :
    (dat1 V c).flushed 2 t = ((cfg1.win 2).blk t).view.read (Elt Ideal) (scaled (V c main_v36) (V c main_v37)) := by
  show (cfg1.win 2).cut (grid1.coords t) ((dat1 V c).after 2 t) = _
  rw [after1_2]
  unfold out1_2
  rw [View.canon_unit_zero zeros2]
  simp only [View.ld_unit_zero (S := S16384) zeros1, View.ld_unit_zero (S := S16384x64) zeros2]
  obtain ⟨e0, e1, e2, e3, e4⟩ := idx_facts t
  funext j
  show k1_pay1 (iblk1 V c 0 t) (iblk1 V c 1 t) j = scaled (V c main_v36) (V c main_v37) (((cfg1.win 2).blk t).view.emb j)
  refine (pay_at _ _ _).trans ?_
  have h0 : ((cfg1.win 0).blk t).view.emb (ix1 (row2 j)) = ix1 (row2 (((cfg1.win 2).blk t).view.emb j)) := by
    funext a; apply Fin.ext
    match a with
    | ⟨0, _⟩ => show win1_0.index t (0 : Fin 1) * 16384 + 1 * (j 0).val = win1_2.index t (0 : Fin 2) * 16384 + 1 * (j 0).val; omega
  have h1 : ((cfg1.win 1).blk t).view.emb j = ((cfg1.win 2).blk t).view.emb j := by
    funext a; apply Fin.ext
    match a with
    | ⟨0, _⟩ => show win1_1.index t (0 : Fin 2) * 16384 + 1 * (j 0).val = win1_2.index t (0 : Fin 2) * 16384 + 1 * (j 0).val; omega
    | ⟨1, _⟩ => show win1_1.index t (1 : Fin 2) * 64 + 1 * (j 1).val = win1_2.index t (1 : Fin 2) * 64 + 1 * (j 1).val; omega
  have key : ∀ (A : S1605632.Idx → EReal) (B : S1605632x64.Idx → EReal),
      A (((cfg1.win 0).blk t).view.emb (ix1 (row2 j))) * B (((cfg1.win 1).blk t).view.emb j)
        = scaled A B (((cfg1.win 2).blk t).view.emb j) := by
    intro A B; rw [h0, h1]; rfl
  exact key (V c main_v36) (V c main_v37)

/-- An entry of the array is in a grid point's block exactly when each coordinate is in the block's range. -/
theorem mem_blk (t : Fin cfg1.N) (i : S1605632x64.Idx) :
    i ∈ ((cfg1.win 2).blk t).view.set ↔ ∀ a : Fin 2, win1_2.index t a * S16384x64.size a ≤ (i a).val ∧ (i a).val < win1_2.index t a * S16384x64.size a + S16384x64.size a := by
  show i ∈ ((View.whole main_v39).slice (win1_2.rect t)).set ↔ _
  rw [View.set_slice_whole, Rect.mem_set_unit]
  exact Iff.rfl

/-- Every entry is written back by the grid point that owns its block of rows. -/
theorem cover (i : S1605632x64.Idx) :
    ∃ t : Fin cfg1.N, (cfg1.win 2).flush t = true ∧ i ∈ ((cfg1.win 2).blk t).view.set := by
  have hi0 : (i 0).val < 1605632 := (i 0).isLt
  have hi1 : (i 1).val < 64 := (i 1).isLt
  obtain ⟨t, ht⟩ := idx_onto ⟨(i 0).val / 16384, by omega⟩
  have q0 : win1_2.index t (0 : Fin 2) = (i 0).val / 16384 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 16384 ≤ (i 0).val ∧ (i 0).val < win1_2.index t (0 : Fin 2) * 16384 + 16384; omega
  | ⟨1, _⟩ => show win1_2.index t (1 : Fin 2) * 64 ≤ (i 1).val ∧ (i 1).val < win1_2.index t (1 : Fin 2) * 64 + 64; omega

/-- The array the region leaves: weight(e) · feature(e, k) at every entry. -/
theorem final (c : Dev nD) :
    (dat1 V c).arrAt 2 cfg1.N = scaled (V c main_v36) (V c main_v37) :=
  (dat1 V c).arrAt_eq_of_cover 2 (scaled (V c main_v36) (V c main_v37)) (fun t _ => flushed_eq V c t) cover

end Cert.KernelIdeal.EdgeScale

end
-- ==== Proof.Combine.lean ====
/-
  The third kernel region: out(r, k) = agg(r, k) + d(r)² · h(r, k) + bias(k), over blocks of 5000 rows.  The
  aggregate, the feature array and the result move together block by block; the one-column array d moves with
  them along the rows; the one-row bias is the same block at every grid point.  So the array the region leaves is
  that expression entry by entry, whatever the four input arrays hold when the region is entered.
-/
import proofs.«122281_j4440996184785_1_alg».proof.Proof.Gen.KernelIdeal.Frame
import proofs.«122281_j4440996184785_1_alg».proof.Proof.Coords
import proofs.«122281_j4440996184785_1_alg».proof.Proof.LibColumn
import Idealize.ShloMosaic.Lib.Pipeline.Value
import Idealize.ShloMosaic.Lib.ValueIdx
import Idealize.ShloMosaic.Lib.ValueLayout
set_option maxRecDepth 16384

noncomputable section

namespace Cert.KernelIdeal.Combine

open Idealize.ShloMosaic Idealize.ShloMosaic.TcCoe Idealize.ShloMosaic.ValueIdx Idealize.SL.Sem
open Idealize.ShloMosaic.Pipeline (Dat)
open Cert.KernelIdeal Cert.KernelIdeal.Gen Cert.Coords

/-- agg(r, k) + d(r)·d(r)·h(r, k) + bias(k). -/
def combined (agg : S100000x64.Idx → EReal) (d : S100000x1.Idx → EReal) (h : S100000x64.Idx → EReal)
    (b : S1x64.Idx → EReal) : S100000x64.Idx → EReal :=
  fun i => agg i + d (ix2 (row2 i) (0 : Fin 1)) * d (ix2 (row2 i) (0 : Fin 1)) * h i + b (ix2 (0 : Fin 1) (col2 i))

/-- The body's expression at one entry of the block. -/
theorem pay_apply (d : Vec Ideal S5000x1 .f32) (b : Vec Ideal S1x64 .f32) (agg : Vec Ideal S5000x64 .f32)
    (h : Vec Ideal S5000x64 .f32) (p : Fin 5000) (q : Fin 64) :
    k2_pay1 d b agg h (ix2 p q)
      = agg (ix2 p q) + d (ix2 p (0 : Fin 1)) * d (ix2 p (0 : Fin 1)) * h (ix2 p q) + b (ix2 (0 : Fin 1) q) := by
  unfold k2_pay1
  simp only [shapeCast_self]
  rw [addf_apply, addf_apply, mulf_apply, Cert.Splat.Column.broadcastTo_a1_ab_apply, mulf_apply,
    broadcastTo_1b_ab_apply]

theorem pay_at (d : Vec Ideal S5000x1 .f32) (b : Vec Ideal S1x64 .f32) (agg : Vec Ideal S5000x64 .f32)
    (h : Vec Ideal S5000x64 .f32) (y : S5000x64.Idx) :
    k2_pay1 d b agg h y
      = agg y + d (ix2 (row2 y) (0 : Fin 1)) * d (ix2 (row2 y) (0 : Fin 1)) * h y + b (ix2 (0 : Fin 1) (col2 y)) := by
  obtain ⟨p, q, rfl⟩ : ∃ (p : Fin 5000) (q : Fin 64), y = ix2 p q := ⟨row2 y, col2 y, eq_ix2_rc y⟩
  exact pay_apply d b agg h p q

/-- The windows over rows move together with the result's; the bias window stays at its one block. -/
theorem idx_facts : ∀ t : Fin cfg2.N, win2_0.index t (0 : Fin 2) = win2_4.index t (0 : Fin 2)
    ∧ win2_0.index t (1 : Fin 2) = win2_4.index t (1 : Fin 2)
    ∧ win2_1.index t (0 : Fin 2) = win2_4.index t (0 : Fin 2)
    ∧ win2_1.index t (1 : Fin 2) = 0
    ∧ win2_2.index t (0 : Fin 2) = win2_4.index t (0 : Fin 2)
    ∧ win2_2.index t (1 : Fin 2) = win2_4.index t (1 : Fin 2)
    ∧ win2_3.index t (0 : Fin 2) = 0
    ∧ win2_3.index t (1 : Fin 2) = 0
    ∧ win2_4.index t (1 : Fin 2) = 0
    ∧ win2_4.index t (0 : Fin 2) ≤ 19 :=
  (by decide +kernel : ∀ t : Fin grid2.N, _)

/-- Every block of rows is some grid point's. -/
theorem idx_onto : ∀ q0 : Fin 20, ∃ t : Fin cfg2.N, win2_4.index t = ![q0.val, 0] :=
  (by decide +kernel : ∀ q0 : Fin 20, ∃ t : Fin grid2.N, win2_4.index t = ![q0.val, 0])

variable (V : (c : Dev nD) → (b : Ref sig .tc) → Buf (Elt Ideal) ((c : Thread nD τ).loc b))

/-- What a grid point writes back is its block of the combined expression of the four arrays as the region finds them. -/
theorem flushed_eq (c : Dev nD) (t : Fin cfg2.N) :
    (dat2 V c).flushed 4 t = ((cfg2.win 4).blk t).view.read (Elt Ideal)
      (combined (V c main_v42) (V c main_v43) (V c main_v28) (V c main_v44)) := by
  show (cfg2.win 4).cut (grid2.coords t) ((dat2 V c).after 4 t) = _
  rw [after2_4]
  unfold out2_4
  rw [View.canon_unit_zero zeros2]
  simp only [View.ld_unit_zero (S := S5000x1) zeros2, View.ld_unit_zero (S := S1x64) zeros2,
    View.ld_unit_zero (S := S5000x64) zeros2]
  obtain ⟨e0, e1, e2, e3, e4, e5, e6, e7, e8, e9⟩ := idx_facts t
  funext j
  show k2_pay1 (iblk2 V c 1 t) (iblk2 V c 3 t) (iblk2 V c 0 t) (iblk2 V c 2 t) j
    = combined (V c main_v42) (V c main_v43) (V c main_v28) (V c main_v44) (((cfg2.win 4).blk t).view.emb j)
  refine (pay_at _ _ _ _ _).trans ?_
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * (j 1).val = win2_4.index t (1 : Fin 2) * 64 + 1 * (j 1).val; omega
  have h2 : ((cfg2.win 2).blk t).view.emb j = ((cfg2.win 4).blk t).view.emb j := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 64 + 1 * (j 1).val = win2_4.index t (1 : Fin 2) * 64 + 1 * (j 1).val; omega
  have h1 : ((cfg2.win 1).blk t).view.emb (ix2 (row2 j) (0 : Fin 1))
      = ix2 (row2 (((cfg2.win 4).blk t).view.emb j)) (0 : Fin 1) := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  have h3 : ((cfg2.win 3).blk t).view.emb (ix2 (0 : Fin 1) (col2 j))
      = ix2 (0 : Fin 1) (col2 (((cfg2.win 4).blk t).view.emb j)) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  have key : ∀ (A : S100000x64.Idx → EReal) (D : S100000x1.Idx → EReal) (H : S100000x64.Idx → EReal) (B : S1x64.Idx → EReal),
      A (((cfg2.win 0).blk t).view.emb j)
        + D (((cfg2.win 1).blk t).view.emb (ix2 (row2 j) (0 : Fin 1))) * D (((cfg2.win 1).blk t).view.emb (ix2 (row2 j) (0 : Fin 1)))
          * H (((cfg2.win 2).blk t).view.emb j)
        + B (((cfg2.win 3).blk t).view.emb (ix2 (0 : Fin 1) (col2 j)))
        = combined A D H B (((cfg2.win 4).blk t).view.emb j) := by
    intro A D H B; rw [h0, h1, h2, h3]; rfl
  exact key (V c main_v42) (V c main_v43) (V c main_v28) (V c main_v44)

/-- An entry of the array is in a grid point's block exactly when each coordinate is in the block's range. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v45).slice (win2_4.rect t)).set ↔ _
  rw [View.set_slice_whole, Rect.mem_set_unit]
  exact Iff.rfl

/-- Every entry is written back by the grid point that owns its block of rows. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The array the region leaves: the combined expression at every entry. -/
theorem final (c : Dev nD) :
    (dat2 V c).arrAt 4 cfg2.N = combined (V c main_v42) (V c main_v43) (V c main_v28) (V c main_v44) :=
  (dat2 V c).arrAt_eq_of_cover 4 (combined (V c main_v42) (V c main_v43) (V c main_v28) (V c main_v44))
    (fun t _ => flushed_eq V c t) cover

end Cert.KernelIdeal.Combine

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«122281_j4440996184785_1_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.Projection.lean ====
/-
  The first kernel region: the projection h = x · W, computed 5000 rows at a time.  A grid point multiplies its
  block of rows of x by the whole of W (both rounded to a narrower format on the way in, which changes nothing over
  the extended reals) into a zero accumulator.  Entry (r, k) of the array the region leaves is therefore the sum
  over q of x(r, q) · W(q, k), whatever the two input arrays hold when the region is entered.
-/
import proofs.«122281_j4440996184785_1_alg».proof.Proof.Gen.KernelIdeal.Frame
import proofs.«122281_j4440996184785_1_alg».proof.Proof.Coords
import proofs.«122281_j4440996184785_1_alg».proof.Proof.LibDense
import Idealize.ShloMosaic.Lib.Pipeline.Value
import Idealize.ShloMosaic.Lib.ValueIdx
set_option maxRecDepth 16384

noncomputable section

namespace Cert.KernelIdeal.Projection

open Idealize.ShloMosaic Idealize.ShloMosaic.TcCoe Idealize.ShloMosaic.ValueIdx Idealize.SL.Sem
open Idealize.ShloMosaic.Pipeline (Dat)
open Cert.KernelIdeal Cert.KernelIdeal.Gen Cert.Coords
open scoped BigOperators

/-- Row r of x against column k of W. -/
def product (x : S100000x128.Idx → EReal) (w : S128x64.Idx → EReal) : S100000x64.Idx → EReal :=
  fun i => ∑ q : Fin 128, x (ix2 (row2 i) q) * w (ix2 q (col2 i))

/-- The body's matrix product at one entry of the block. -/
theorem pay_apply (v0 : Vec Ideal S5000x128 .f32) (v2 : Vec Ideal S128x64 .f32) (p : Fin 5000) (q : Fin 64) :
    k0_pay1 v0 v2 (ix2 p q) = ∑ k : Fin 128, v0 (ix2 p k) * v2 (ix2 k q) :=
  Cert.Hand.Dense.matmul_entry (M := 5000) (K := 128) (N := 64) none
    (truncf .bf16 v0 bitsLt_bf16_f32) (truncf .bf16 v2 bitsLt_bf16_f32) p q

theorem pay_at (v0 : Vec Ideal S5000x128 .f32) (v2 : Vec Ideal S128x64 .f32) (y : S5000x64.Idx) :
    k0_pay1 v0 v2 y = ∑ k : Fin 128, v0 (ix2 (row2 y) k) * v2 (ix2 k (col2 y)) := by
  obtain ⟨p, q, rfl⟩ : ∃ (p : Fin 5000) (q : Fin 64), y = ix2 p q := ⟨row2 y, col2 y, eq_ix2_rc y⟩
  exact pay_apply v0 v2 p q

/-- The block of x moves with the result's block of rows; W is one block, the same at every grid point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some grid point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What a grid point writes back is its block of rows of the product of the two arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x64) zeros2]
  obtain ⟨e0, e1, e2, e3, e4, e5⟩ := idx_facts t
  funext j
  show k0_pay1 (iblk0 V c 0 t) (iblk0 V c 1 t) j
    = product (V c main_arg0) (V c main_arg2) (((cfg0.win 2).blk t).view.emb j)
  refine (pay_at _ _ _).trans ?_
  have h0 : ∀ k : Fin 128, ((cfg0.win 0).blk t).view.emb (ix2 (row2 j) k)
      = ix2 (row2 (((cfg0.win 2).blk t).view.emb j)) k := by
    intro k; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (col2 j))
      = ix2 k (col2 (((cfg0.win 2).blk t).view.emb j)) := by
    intro k; funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have key : ∀ (A : S100000x128.Idx → EReal) (B : S128x64.Idx → EReal),
      (∑ k : Fin 128, A (((cfg0.win 0).blk t).view.emb (ix2 (row2 j) k)) * B (((cfg0.win 1).blk t).view.emb (ix2 k (col2 j))))
        = product A B (((cfg0.win 2).blk t).view.emb j) := by
    intro A B
    unfold product
    refine Finset.sum_congr rfl fun k _ => ?_
    rw [h0 k, h1 k]
  exact key (V c main_arg0) (V c main_arg2)

/-- An entry of the array is in a grid point's block exactly when each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- Every entry is written back by the grid point that owns its block of rows. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the region leaves: x · W at every entry. -/
theorem final (c : Dev nD) :
    (dat0 V c).arrAt 2 cfg0.N = product (V c main_arg0) (V c main_arg2) :=
  (dat0 V c).arrAt_eq_of_cover 2 (product (V c main_arg0) (V c main_arg2)) (fun t _ => flushed_eq V c t) cover

end Cert.KernelIdeal.Projection

end
-- ==== Proof.EdgeWeights.lean ====
/-
  The part of the computation the two programs share, as functions of the edge list alone: the two endpoint
  lists, the degree of every node (how many edges start there), its inverse square root, an endpoint list with
  negative entries wrapped, and the weight of every edge — the product of its endpoints' inverse-square-root
  degrees, or zero for a self-loop.  Each is the composition of host operations both programs print, spelt once.
-/
import proofs.«122281_j4440996184785_1_alg».proof.KernelIdeal
import proofs.«122281_j4440996184785_1_alg».proof.Proof.Gen.KernelIdeal

noncomputable section

namespace Cert.KernelIdeal.EdgeWeights

open Idealize.ShloMosaic Cert.KernelIdeal Cert.KernelIdeal.Facts₀ Cert.KernelIdeal.Facts

variable {F : FTy → Type} [FloatOps F]

/-- The start nodes of the edges: the edge list's first row. -/
def rows (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The end nodes of the edges: the edge list's second row. -/
def cols (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A list of node numbers as a one-column array. -/
def column (v : (⟨S1600000, .i32⟩ : BufTy).Contents (Elt F)) : (⟨S1600000x1, .i32⟩ : BufTy).Contents (Elt F) :=
  broadcastInDim S1600000x1 ![0] bcast_S1600000_S1600000x1_0 v

/-- The degree of every node: one added at the start node of every edge. -/
def degree (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (column (rows ei))
    (broadcastInDim S1600000 ![] bcast_S_S1600000 (constant S_ .f32 0x3F800000#32))

/-- Degree to the power minus one half. -/
def invSqrtDeg (ei : (⟨S2x1600000, .i32⟩ : BufTy).Contents (Elt F)) : (⟨S100000, .f32⟩ : BufTy).Contents (Elt F) :=
  Host.powf (degree ei) (broadcastInDim S100000 ![] bcast_S_S100000 (constant S_ .f32 0xBF000000#32))

/-- Node numbers with the negative ones moved up by the number of nodes. -/
def wrapped (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- The weight of every edge. -/
def weight (ei : (⟨S2x1600000, .i32⟩ : BufTy).Contents (Elt F)) : (⟨S1600000, .f32⟩ : BufTy).Contents (Elt F) :=
  select (cmpi .ne (rows ei) (cols ei))
    (mulf (Host.gather gather_S100000_S1600000x1_S1600000_n_0_n_n_0_1_1 (invSqrtDeg ei) (column (wrapped (rows ei))))
      (Host.gather gather_S100000_S1600000x1_S1600000_n_0_n_n_0_1_1 (invSqrtDeg ei) (column (wrapped (cols ei)))))
    (broadcastInDim S1600000 ![] bcast_S_S1600000 (constant S_ .f32 0x00000000#32))

end Cert.KernelIdeal.EdgeWeights

end
-- ==== Proof.PaddedEdges.lean ====
/-
  The kernel program's own host steps between its regions, as functions: the edge weights, the looked-up feature
  rows and the start nodes each lengthened by 5632 entries (zeros; node number zero) so that the edge count is a
  multiple of the block length; the lookup of a feature row for every edge's end node; the accumulation of the
  scaled rows into their start nodes; and the two reshapes that hand the inverse-square-root degrees to the last
  region as a column and the bias as a row.
-/
import proofs.«122281_j4440996184785_1_alg».proof.Proof.EdgeWeights

noncomputable section

namespace Cert.KernelIdeal.PaddedEdges

open Idealize.ShloMosaic Cert.KernelIdeal Cert.KernelIdeal.Facts₀ Cert.KernelIdeal.Facts Cert.KernelIdeal.EdgeWeights

variable {F : FTy → Type} [FloatOps F]

/-- The padding value for the two float arrays: the integer zero as a float. -/
def zeroF : (⟨S_, .f32⟩ : BufTy).Contents (Elt F) := sitofp .f32 (constantI S_ 32 0#32)

/-- The padding value for the node numbers: the integer zero. -/
def zeroI : (⟨S_, .i32⟩ : BufTy).Contents (Elt F) := id (constantI S_ 32 0#32)

/-- The edge weights followed by 5632 zeros. -/
def padWeights (w : (⟨S1600000, .f32⟩ : BufTy).Contents (Elt F)) : (⟨S1605632, .f32⟩ : BufTy).Contents (Elt F) :=
  pad S1605632 ![0] ![5632] ![0] w (zeroF (F := F)) pads_S1600000_S1605632_056320 h_S_

/-- The looked-up feature rows followed by 5632 rows of zeros. -/
def padFeatures (h : (⟨S1600000x64, .f32⟩ : BufTy).Contents (Elt F)) : (⟨S1605632x64, .f32⟩ : BufTy).Contents (Elt F) :=
  pad S1605632x64 ![0, 0] ![5632, 0] ![0, 0] h (zeroF (F := F)) pads_S1600000x64_S1605632x64_056320_000 h_S_

/-- The start nodes followed by 5632 times node zero. -/
def padRows (r : (⟨S1600000, .i32⟩ : BufTy).Contents (Elt F)) : (⟨S1605632, .i32⟩ : BufTy).Contents (Elt F) :=
  pad S1605632 ![0] ![5632] ![0] r (zeroI (F := F)) pads_S1600000_S1605632_056320 h_S_

/-- For every edge, the feature row of its end node. -/
def lookedUp (h : (⟨S100000x64, .f32⟩ : BufTy).Contents (Elt F)) (ends : (⟨S1600000, .i32⟩ : BufTy).Contents (Elt F)) :
    (⟨S1600000x64, .f32⟩ : BufTy).Contents (Elt F) :=
  Host.gather gather_S100000x64_S1600000x1_S1600000x64_1_0_n_n_0_1_164 h (column (wrapped ends))

/-- The update rows added, each into the row its start node names, starting from zeros. -/
def accumulate (starts : (⟨S1605632, .i32⟩ : BufTy).Contents (Elt F)) (upd : (⟨S1605632x64, .f32⟩ : BufTy).Contents (Elt F)) :
    (⟨S100000x64, .f32⟩ : BufTy).Contents (Elt F) :=
  Host.scatterAdd scatter_S100000x64_S1605632x1_S1605632x64_1_0_0_1
    (broadcastInDim S100000x64 ![] bcast_S_S100000x64 (constant S_ .f32 0x00000000#32))
    (broadcastInDim S1605632x1 ![0] bcast_S1605632_S1605632x1_0 starts) upd

/-- A value per node as a one-column array. -/
def asColumn (d : (⟨S100000, .f32⟩ : BufTy).Contents (Elt F)) : (⟨S100000x1, .f32⟩ : BufTy).Contents (Elt F) :=
  broadcastInDim S100000x1 ![0] bcast_S100000_S100000x1_0 d

/-- The bias as a one-row array. -/
def asRow (b : (⟨S64, .f32⟩ : BufTy).Contents (Elt F)) : (⟨S1x64, .f32⟩ : BufTy).Contents (Elt F) :=
  broadcastInDim S1x64 ![1] bcast_S64_S1x64_1 b

end Cert.KernelIdeal.PaddedEdges

end
-- ==== Proof.KernelOut.lean ====
/-
  What the kernel program returns, as one function of its four arguments: the last region's combination of the
  accumulated scaled rows, the inverse-square-root degrees as a column, the projection and the bias as a row.
-/
import proofs.«122281_j4440996184785_1_alg».proof.Proof.Projection
import proofs.«122281_j4440996184785_1_alg».proof.Proof.EdgeScale
import proofs.«122281_j4440996184785_1_alg».proof.Proof.Combine
import proofs.«122281_j4440996184785_1_alg».proof.Proof.PaddedEdges

noncomputable section

namespace Cert.KernelIdeal.KernelOut

open Idealize.ShloMosaic
open Cert.KernelIdeal Cert.KernelIdeal.EdgeWeights Cert.KernelIdeal.PaddedEdges

/-- The kernel program's result. -/
def kernelOut (x : (⟨S100000x128, .f32⟩ : BufTy).Contents (Elt Ideal)) (ei : (⟨S2x1600000, .i32⟩ : BufTy).Contents (Elt Ideal))
    (wt : (⟨S128x64, .f32⟩ : BufTy).Contents (Elt Ideal)) (b : (⟨S64, .f32⟩ : BufTy).Contents (Elt Ideal)) :
    S100000x64.Idx → EReal :=
  Combine.combined
    (accumulate (F := Ideal) (padRows (rows ei))
      (EdgeScale.scaled (padWeights (F := Ideal) (weight ei)) (padFeatures (F := Ideal) (lookedUp (Projection.product x wt) (cols ei)))))
    (asColumn (F := Ideal) (invSqrtDeg ei)) (Projection.product x wt) (asRow (F := Ideal) b)

end Cert.KernelIdeal.KernelOut

end
-- ==== Proof.EntryOfFirst.lean ====
/-
  The kernel program's buffers when its first region is entered: the arguments as launched, and the two endpoint
  lists and the inverse-square-root degrees the first stretch of host operations computed from the edge list.
-/
import proofs.«122281_j4440996184785_1_alg».proof.Proof.Gen.KernelIdeal.Frame
import proofs.«122281_j4440996184785_1_alg».proof.Proof.PaddedEdges
import Idealize.ShloMosaic.Lib.StableHlo.Run
import Idealize.ShloMosaic.PureOps.Ideal

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.EdgeWeights Cert.KernelIdeal.PaddedEdges

variable (m : (ℓ : Loc nD τ sig) → Buf (Elt Ideal) ℓ) (ρ : Dev nD → PrngReg) (c : Dev nD)

/-! ## Entering the first region: the launch memory after the first two stretches -/

set_option maxHeartbeats 4000000 in
theorem w2_arg0 : W2 m ρ c (Proc.devRef .tc main_arg0) = m ((c : Thread nD τ).loc main_arg0) := by
  show StableHlo.after hostOps0_1 (StableHlo.after hostOps0 (W0 m ρ c)) (Proc.devRef .tc main_arg0) = _
  after_results_simp <;> rfl
set_option maxHeartbeats 4000000 in
theorem w2_arg2 : W2 m ρ c (Proc.devRef .tc main_arg2) = m ((c : Thread nD τ).loc main_arg2) := by
  show StableHlo.after hostOps0_1 (StableHlo.after hostOps0 (W0 m ρ c)) (Proc.devRef .tc main_arg2) = _
  after_results_simp <;> rfl
set_option maxHeartbeats 4000000 in
theorem w2_arg3 : W2 m ρ c (Proc.devRef .tc main_arg3) = m ((c : Thread nD τ).loc main_arg3) := by
  show StableHlo.after hostOps0_1 (StableHlo.after hostOps0 (W0 m ρ c)) (Proc.devRef .tc main_arg3) = _
  after_results_simp <;> rfl
set_option maxHeartbeats 4000000 in
theorem w2_v1 : W2 m ρ c (Proc.devRef .tc main_v1) = rows (m ((c : Thread nD τ).loc main_arg1)) := by
  show StableHlo.after hostOps0_1 (StableHlo.after hostOps0 (W0 m ρ c)) (Proc.devRef .tc main_v1) = _
  after_results_simp <;> rfl
set_option maxHeartbeats 4000000 in
theorem w2_v3 : W2 m ρ c (Proc.devRef .tc main_v3) = cols (m ((c : Thread nD τ).loc main_arg1)) := by
  show StableHlo.after hostOps0_1 (StableHlo.after hostOps0 (W0 m ρ c)) (Proc.devRef .tc main_v3) = _
  after_results_simp <;> rfl
set_option maxHeartbeats 4000000 in
theorem w2_v9 : W2 m ρ c (Proc.devRef .tc main_v9) = invSqrtDeg (m ((c : Thread nD τ).loc main_arg1)) := by
  show StableHlo.after hostOps0_1 (StableHlo.after hostOps0 (W0 m ρ c)) (Proc.devRef .tc main_v9) = _
  after_results_simp <;> (unfold invSqrtDeg degree column rows; rfl)

end Cert.KernelIdeal.HostReads

end
-- ==== Proof.EntryOfFirstWeights.lean ====
/-
  The kernel program's edge-weight buffer when its first region is entered.  The first stretch of host operations
  is read in two parts: after its first thirteen operations the endpoint lists and the inverse-square-root
  degrees are in place; its remaining operations, and the one operation of the second stretch, compute the
  weight of every edge from those three buffers alone.
-/
import proofs.«122281_j4440996184785_1_alg».proof.Proof.Gen.KernelIdeal.Frame
import proofs.«122281_j4440996184785_1_alg».proof.Proof.PaddedEdges
import Idealize.ShloMosaic.Lib.StableHlo.Run
import Idealize.ShloMosaic.PureOps.Ideal

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.EdgeWeights Cert.KernelIdeal.PaddedEdges
open Cert.KernelIdeal.Facts₀

variable (m : (ℓ : Loc nD τ sig) → Buf (Elt Ideal) ℓ) (ρ : Dev nD → PrngReg) (c : Dev nD)

/-- The weight of every edge from the two endpoint lists and the inverse-square-root degrees. -/
def weightFrom {F : FTy → Type} [FloatOps F] (r c' : (⟨S1600000, .i32⟩ : BufTy).Contents (Elt F))
    (d : (⟨S100000, .f32⟩ : BufTy).Contents (Elt F)) : (⟨S1600000, .f32⟩ : BufTy).Contents (Elt F) :=
  select (cmpi .ne r c')
    (mulf (Host.gather gather_S100000_S1600000x1_S1600000_n_0_n_n_0_1_1 d (column (wrapped r)))
      (Host.gather gather_S100000_S1600000x1_S1600000_n_0_n_n_0_1_1 d (column (wrapped c'))))
    (broadcastInDim S1600000 ![] Cert.KernelIdeal.Facts₀.bcast_S_S1600000 (constant S_ .f32 0x00000000#32))

theorem weight_eq (ei : (⟨S2x1600000, .i32⟩ : BufTy).Contents (Elt Ideal)) :
    weight ei = weightFrom (rows ei) (cols ei) (invSqrtDeg ei) := rfl

/-- The first stretch, read as its first thirteen operations followed by the rest. -/
theorem split_first (V : Valuation τ sig (Elt Ideal)) :
    StableHlo.after hostOps0 V = StableHlo.after (hostOps0.drop 13) (StableHlo.after (hostOps0.take 13) V) := rfl

set_option maxHeartbeats 4000000 in
theorem mid_v1 : StableHlo.after (hostOps0.take 13) (W0 m ρ c) (Proc.devRef .tc main_v1)
    = rows (m ((c : Thread nD τ).loc main_arg1)) := by
  simp only [hostOps0, List.take_succ_cons, List.take_zero]
  after_results_simp <;> rfl
set_option maxHeartbeats 4000000 in
theorem mid_v3 : StableHlo.after (hostOps0.take 13) (W0 m ρ c) (Proc.devRef .tc main_v3)
    = cols (m ((c : Thread nD τ).loc main_arg1)) := by
  simp only [hostOps0, List.take_succ_cons, List.take_zero]
  after_results_simp <;> rfl
set_option maxHeartbeats 4000000 in
theorem mid_v9 : StableHlo.after (hostOps0.take 13) (W0 m ρ c) (Proc.devRef .tc main_v9)
    = invSqrtDeg (m ((c : Thread nD τ).loc main_arg1)) := by
  simp only [hostOps0, List.take_succ_cons, List.take_zero]
  after_results_simp <;> (unfold invSqrtDeg degree column rows; rfl)

set_option maxHeartbeats 4000000 in
/-- The weights from the three buffers, whatever else the contents after the thirteenth operation hold. -/
theorem weights_of_mid (U : Valuation τ sig (Elt Ideal)) (r c' : (⟨S1600000, .i32⟩ : BufTy).Contents (Elt Ideal))
    (d : (⟨S100000, .f32⟩ : BufTy).Contents (Elt Ideal))
    (h1 : U (Proc.devRef .tc main_v1) = r) (h3 : U (Proc.devRef .tc main_v3) = c') (h9 : U (Proc.devRef .tc main_v9) = d) :
    StableHlo.after hostOps0_1 (StableHlo.after (hostOps0.drop 13) U) (Proc.devRef .tc main_v27)
      = weightFrom r c' d := by
  simp only [hostOps0, List.drop_succ_cons, List.drop_zero]
  after_results_simp
  rw [h1, h3, h9]
  rfl

theorem w2_v27 : W2 m ρ c (Proc.devRef .tc main_v27) = weight (m ((c : Thread nD τ).loc main_arg1)) := by
  show StableHlo.after hostOps0_1 (StableHlo.after hostOps0 (W0 m ρ c)) (Proc.devRef .tc main_v27) = _
  rw [split_first, weight_eq]
  exact weights_of_mid _ _ _ _ (mid_v1 m ρ c) (mid_v3 m ρ c) (mid_v9 m ρ c)

end Cert.KernelIdeal.HostReads

end
-- ==== Proof.EntryOfSecond.lean ====
/-
  The kernel program's buffers when its first region is left and when its second is entered.  The first region
  leaves the projection x · W and touches nothing else the later steps read; the six stretches of host operations
  after it look a projected row up for every edge and pad the weights, the looked-up rows and the start nodes.
-/
import proofs.«122281_j4440996184785_1_alg».proof.Proof.Gen.KernelIdeal.Frame
import proofs.«122281_j4440996184785_1_alg».proof.Proof.Projection
import proofs.«122281_j4440996184785_1_alg».proof.Proof.PaddedEdges
import proofs.«122281_j4440996184785_1_alg».proof.Proof.EntryOfFirst
import proofs.«122281_j4440996184785_1_alg».proof.Proof.EntryOfFirstWeights
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.EdgeWeights Cert.KernelIdeal.PaddedEdges

variable (m : (ℓ : Loc nD τ sig) → Buf (Elt Ideal) ℓ) (ρ : Dev nD → PrngReg) (c : Dev nD)

/-! ## Leaving the first region -/

theorem w3_v28 : W3 m ρ c (Proc.devRef .tc main_v28)
    = Projection.product (m ((c : Thread nD τ).loc main_arg0)) (m ((c : Thread nD τ).loc main_arg2)) :=
  (W3_arr m ρ c 2).trans ((Projection.final (V2 m ρ) c).trans
    (congrArg₂ Projection.product (w2_arg0 m ρ c) (w2_arg2 m ρ c)))

theorem w3_v1 : W3 m ρ c (Proc.devRef .tc main_v1) = rows (m ((c : Thread nD τ).loc main_arg1)) :=
  (W3_of_ne m ρ c main_v1 (by decide)).trans (w2_v1 m ρ c)
theorem w3_v3 : W3 m ρ c (Proc.devRef .tc main_v3) = cols (m ((c : Thread nD τ).loc main_arg1)) :=
  (W3_of_ne m ρ c main_v3 (by decide)).trans (w2_v3 m ρ c)
theorem w3_v9 : W3 m ρ c (Proc.devRef .tc main_v9) = invSqrtDeg (m ((c : Thread nD τ).loc main_arg1)) :=
  (W3_of_ne m ρ c main_v9 (by decide)).trans (w2_v9 m ρ c)
theorem w3_v27 : W3 m ρ c (Proc.devRef .tc main_v27) = weight (m ((c : Thread nD τ).loc main_arg1)) :=
  (W3_of_ne m ρ c main_v27 (by decide)).trans (w2_v27 m ρ c)
theorem w3_arg3 : W3 m ρ c (Proc.devRef .tc main_arg3) = m ((c : Thread nD τ).loc main_arg3) :=
  (W3_of_ne m ρ c main_arg3 (by decide)).trans (w2_arg3 m ρ c)

/-! ## Entering the second region: after the six stretches between the regions -/

set_option maxHeartbeats 4000000 in
theorem w9_v36 : W9 m ρ c (Proc.devRef .tc main_v36) = padWeights (W3 m ρ c (Proc.devRef .tc main_v27)) := by
  show StableHlo.after hostOps1_5 (StableHlo.after hostOps1_4 (StableHlo.after hostOps1_3 (StableHlo.after hostOps1_2
    (StableHlo.after hostOps1_1 (StableHlo.after hostOps1 (W3 m ρ c)))))) (Proc.devRef .tc main_v36) = _
  after_results_simp <;> rfl
set_option maxHeartbeats 4000000 in
theorem w9_v37 : W9 m ρ c (Proc.devRef .tc main_v37)
    = padFeatures (lookedUp (W3 m ρ c (Proc.devRef .tc main_v28)) (W3 m ρ c (Proc.devRef .tc main_v3))) := by
  show StableHlo.after hostOps1_5 (StableHlo.after hostOps1_4 (StableHlo.after hostOps1_3 (StableHlo.after hostOps1_2
    (StableHlo.after hostOps1_1 (StableHlo.after hostOps1 (W3 m ρ c)))))) (Proc.devRef .tc main_v37) = _
  after_results_simp <;> rfl
set_option maxHeartbeats 4000000 in
theorem w9_v38 : W9 m ρ c (Proc.devRef .tc main_v38) = padRows (W3 m ρ c (Proc.devRef .tc main_v1)) := by
  show StableHlo.after hostOps1_5 (StableHlo.after hostOps1_4 (StableHlo.after hostOps1_3 (StableHlo.after hostOps1_2
    (StableHlo.after hostOps1_1 (StableHlo.after hostOps1 (W3 m ρ c)))))) (Proc.devRef .tc main_v38) = _
  after_results_simp <;> rfl
set_option maxHeartbeats 4000000 in
theorem w9_v9 : W9 m ρ c (Proc.devRef .tc main_v9) = W3 m ρ c (Proc.devRef .tc main_v9) := by
  show StableHlo.after hostOps1_5 (StableHlo.after hostOps1_4 (StableHlo.after hostOps1_3 (StableHlo.after hostOps1_2
    (StableHlo.after hostOps1_1 (StableHlo.after hostOps1 (W3 m ρ c)))))) (Proc.devRef .tc main_v9) = _
  after_results_simp <;> rfl
set_option maxHeartbeats 4000000 in
theorem w9_arg3 : W9 m ρ c (Proc.devRef .tc main_arg3) = W3 m ρ c (Proc.devRef .tc main_arg3) := by
  show StableHlo.after hostOps1_5 (StableHlo.after hostOps1_4 (StableHlo.after hostOps1_3 (StableHlo.after hostOps1_2
    (StableHlo.after hostOps1_1 (StableHlo.after hostOps1 (W3 m ρ c)))))) (Proc.devRef .tc main_arg3) = _
  after_results_simp <;> rfl
set_option maxHeartbeats 4000000 in
theorem w9_v28 : W9 m ρ c (Proc.devRef .tc main_v28) = W3 m ρ c (Proc.devRef .tc main_v28) := by
  show StableHlo.after hostOps1_5 (StableHlo.after hostOps1_4 (StableHlo.after hostOps1_3 (StableHlo.after hostOps1_2
    (StableHlo.after hostOps1_1 (StableHlo.after hostOps1 (W3 m ρ c)))))) (Proc.devRef .tc main_v28) = _
  after_results_simp <;> rfl

end Cert.KernelIdeal.HostReads

end
-- ==== Proof.HostReads.lean ====
/-
  The kernel program's buffers from the second region's exit to the return, and the returned array as one function
  of the four arguments: the second region leaves every padded looked-up row scaled by its weight; the host
  accumulates the rows into their start nodes and reshapes the inverse-square-root degrees and the bias; the last
  region combines them with the projection.
-/
import proofs.«122281_j4440996184785_1_alg».proof.Proof.Gen.KernelIdeal.Frame
import proofs.«122281_j4440996184785_1_alg».proof.Proof.EdgeScale
import proofs.«122281_j4440996184785_1_alg».proof.Proof.Combine
import proofs.«122281_j4440996184785_1_alg».proof.Proof.KernelOut
import proofs.«122281_j4440996184785_1_alg».proof.Proof.EntryOfSecond
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.EdgeWeights Cert.KernelIdeal.PaddedEdges Cert.KernelIdeal.KernelOut

variable (m : (ℓ : Loc nD τ sig) → Buf (Elt Ideal) ℓ) (ρ : Dev nD → PrngReg) (c : Dev nD)

/-! ## Leaving the second region -/

theorem w10_v39 : W10 m ρ c (Proc.devRef .tc main_v39)
    = EdgeScale.scaled (W9 m ρ c (Proc.devRef .tc main_v36)) (W9 m ρ c (Proc.devRef .tc main_v37)) :=
  (W10_arr m ρ c 2).trans (EdgeScale.final (V9 m ρ) c)

/-! ## Entering the last region -/

set_option maxHeartbeats 4000000 in
theorem w11_v42 : W11 m ρ c (Proc.devRef .tc main_v42)
    = accumulate (W10 m ρ c (Proc.devRef .tc main_v38)) (W10 m ρ c (Proc.devRef .tc main_v39)) := by
  show StableHlo.after hostOps2 (W10 m ρ c) (Proc.devRef .tc main_v42) = _
  after_results_simp <;> rfl
set_option maxHeartbeats 4000000 in
theorem w11_v43 : W11 m ρ c (Proc.devRef .tc main_v43) = asColumn (W10 m ρ c (Proc.devRef .tc main_v9)) := by
  show StableHlo.after hostOps2 (W10 m ρ c) (Proc.devRef .tc main_v43) = _
  after_results_simp <;> rfl
set_option maxHeartbeats 4000000 in
theorem w11_v44 : W11 m ρ c (Proc.devRef .tc main_v44) = asRow (W10 m ρ c (Proc.devRef .tc main_arg3)) := by
  show StableHlo.after hostOps2 (W10 m ρ c) (Proc.devRef .tc main_v44) = _
  after_results_simp <;> rfl
set_option maxHeartbeats 4000000 in
theorem w11_v28 : W11 m ρ c (Proc.devRef .tc main_v28) = W10 m ρ c (Proc.devRef .tc main_v28) := by
  show StableHlo.after hostOps2 (W10 m ρ c) (Proc.devRef .tc main_v28) = _
  after_results_simp <;> rfl

/-! ## The returned array -/

theorem w12_v45 : W12 m ρ c (Proc.devRef .tc main_v45)
    = Combine.combined (W11 m ρ c (Proc.devRef .tc main_v42)) (W11 m ρ c (Proc.devRef .tc main_v43))
        (W11 m ρ c (Proc.devRef .tc main_v28)) (W11 m ρ c (Proc.devRef .tc main_v44)) :=
  (W12_arr m ρ c 4).trans (Combine.final (V11 m ρ) c)

/-- The returned array is the kernel program's function of the four arguments. -/
theorem kernel_value : W12 m ρ c (Proc.devRef .tc main_v45)
    = kernelOut (m ((c : Thread nD τ).loc main_arg0)) (m ((c : Thread nD τ).loc main_arg1))
        (m ((c : Thread nD τ).loc main_arg2)) (m ((c : Thread nD τ).loc main_arg3)) := by
  rw [w12_v45, w11_v42, w11_v43, w11_v44, w11_v28, w10_v39,
    W10_of_ne m ρ c main_v38 (by decide), W10_of_ne m ρ c main_v9 (by decide), W10_of_ne m ρ c main_arg3 (by decide),
    W10_of_ne m ρ c main_v28 (by decide),
    w9_v36, w9_v37, w9_v38, w9_v9, w9_arg3, w9_v28, w3_v28, w3_v1, w3_v3, w3_v9, w3_v27, w3_arg3]
  rfl

end Cert.KernelIdeal.HostReads

end
-- ==== Proof.PadReads.lean ====
/-
  The padded per-edge arrays read at an entry.  Before position 1600000 a padded array reads the array it pads;
  from there on the two float arrays read zero (the integer zero converted to a float is the real number zero).
  Also: a vector spread to a one-column matrix reads its own entry at (i, 0), and spread to a one-row matrix reads
  its own entry at (0, k).
-/
import proofs.«122281_j4440996184785_1_alg».proof.Proof.PaddedEdges
import Idealize.ShloMosaic.Lib.KernelVsHost
import Idealize.ShloMosaic.Lib.Pipeline.Value
import Idealize.ShloMosaic.Lib.ValueIdx

noncomputable section

namespace Cert.KernelIdeal.PadReads

open Idealize.ShloMosaic Idealize.ShloMosaic.ValueIdx
open Cert.KernelIdeal Cert.KernelIdeal.Facts₀ Cert.KernelIdeal.Facts Cert.KernelIdeal.PaddedEdges

section Layout
variable {α : Type}

/-- A length-a vector spread to an a-by-1 column reads, at (i, u), the vector at i. -/
theorem column_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A length-b vector spread to a 1-by-b row reads, at (u, k), the vector at k. -/
theorem row_apply {b : ℕ} (v : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h v (ix2 u k) = v (ix1 k) := by
  refine broadcastInDim_apply _ h v (ix2 u k) (ix1 k) fun ax => ?_
  match ax with
  | ⟨0, _⟩ =>
    show k.val = if b = 1 then 0 else k.val
    split
    · have := k.isLt; omega
    · rfl

end Layout

/-- The float padding value is the real number zero. -/
theorem zeroF_apply (j : S_.Idx) : zeroF (F := Ideal) j = 0 := by
  show (((0#32 : BitVec 32).toInt : ℝ) : EReal) = 0
  simp

section Padded
variable {F : FTy → Type} [FloatOps F]

/-- Before position 1600000 the padded weights are the weights. -/
theorem padWeights_lt (w : (⟨S1600000, .f32⟩ : BufTy).Contents (Elt F)) (e : Fin 1605632) (h : e.val < 1600000) :
    padWeights w (ix1 e) = w (ix1 (⟨e.val, h⟩ : Fin 1600000)) := by
  unfold padWeights
  refine pad_apply_of_inside _ _ _ w _ _ _ (ix1 e) (ix1 (⟨e.val, h⟩ : Fin 1600000)) fun a => ?_
  match a with
  | ⟨0, _⟩ => show e.val = 0 + e.val * (0 + 1); omega

/-- From position 1600000 on the padded weights are the padding value. -/
theorem padWeights_ge (w : (⟨S1600000, .f32⟩ : BufTy).Contents (Elt F)) (e : Fin 1605632) (h : 1600000 ≤ e.val) :
    padWeights w (ix1 e) = zeroF (F := F) (Shape.Idx.first h_S_) := by
  unfold padWeights
  refine pad_apply_of_not_inside _ _ _ w _ _ _ (ix1 e) (0 : Fin 1) ?_
  show ¬ (0 ≤ e.val ∧ (e.val - 0) % (0 + 1) = 0 ∧ (e.val - 0) / (0 + 1) < 1600000)
  intro hh
  have := hh.2.2
  omega

/-- Before row 1600000 the padded feature rows are the feature rows. -/
theorem padFeatures_lt (x : (⟨S1600000x64, .f32⟩ : BufTy).Contents (Elt F)) (e : Fin 1605632) (k : Fin 64)
    (h : e.val < 1600000) : padFeatures x (ix2 e k) = x (ix2 (⟨e.val, h⟩ : Fin 1600000) k) := by
  unfold padFeatures
  refine pad_apply_of_inside _ _ _ x _ _ _ (ix2 e k) (ix2 (⟨e.val, h⟩ : Fin 1600000) k) fun a => ?_
  match a with
  | ⟨0, _⟩ => show e.val = 0 + e.val * (0 + 1); omega
  | ⟨1, _⟩ => show k.val = 0 + k.val * (0 + 1); omega

/-- From row 1600000 on the padded feature rows are the padding value. -/
theorem padFeatures_ge (x : (⟨S1600000x64, .f32⟩ : BufTy).Contents (Elt F)) (e : Fin 1605632) (k : Fin 64)
    (h : 1600000 ≤ e.val) : padFeatures x (ix2 e k) = zeroF (F := F) (Shape.Idx.first h_S_) := by
  unfold padFeatures
  refine pad_apply_of_not_inside _ _ _ x _ _ _ (ix2 e k) (0 : Fin 2) ?_
  show ¬ (0 ≤ e.val ∧ (e.val - 0) % (0 + 1) = 0 ∧ (e.val - 0) / (0 + 1) < 1600000)
  intro hh
  have := hh.2.2
  omega

/-- Before position 1600000 the padded start nodes are the start nodes. -/
theorem padRows_lt (r : (⟨S1600000, .i32⟩ : BufTy).Contents (Elt F)) (e : Fin 1605632) (h : e.val < 1600000) :
    padRows r (ix1 e) = r (ix1 (⟨e.val, h⟩ : Fin 1600000)) := by
  unfold padRows
  refine pad_apply_of_inside _ _ _ r _ _ _ (ix1 e) (ix1 (⟨e.val, h⟩ : Fin 1600000)) fun a => ?_
  match a with
  | ⟨0, _⟩ => show e.val = 0 + e.val * (0 + 1); omega

end Padded

end Cert.KernelIdeal.PadReads

end
-- ==== Proof.LibSumPad.lean ====
/-
  A finite sum whose terms vanish from some position on is the sum of the terms before that position: padding a
  list of summands with zeros does not change its sum.  Stated over any commutative monoid written additively.
-/
import Mathlib

open scoped BigOperators

namespace LibSumPad

/-- If f vanishes at every position from n on, the sum of f over the first N positions is the sum over the first n. -/
theorem sum_eq_sum_castLE {M : Type*} [AddCommMonoid M] {n N : ℕ} (h : n ≤ N) (f : Fin N → M)
    (hz : ∀ e : Fin N, n ≤ e.val → f e = 0) : ∑ e : Fin N, f e = ∑ e : Fin n, f (Fin.castLE h e) := by
  have hsub : ∑ e ∈ Finset.univ.map (Fin.castLEEmb h), f e = ∑ e : Fin N, f e := by
    refine Finset.sum_subset (Finset.subset_univ _) fun e _ he => hz e ?_
    by_contra hlt
    have hlt' : e.val < n := Nat.lt_of_not_le hlt
    exact he (Finset.mem_map.mpr ⟨⟨e.val, hlt'⟩, Finset.mem_univ _, Fin.ext rfl⟩)
  rw [← hsub, Finset.sum_map]
  rfl

end LibSumPad
-- ==== Proof.LibGatherScatter.lean ====
/-
  Row lookups and row accumulations read at one entry.

  A table of N rows is looked up at a list of E signed row numbers: entry e of the result is the table's row whose
  number is the e-th row number, read as a signed integer and clamped into [0, N − 1].  An accumulation adds E update
  rows into a table of N rows: update e is added to the row its signed row number names, and is dropped when that
  number names no row.  Over the extended reals the accumulated table reads, at row i, the table's own entry plus
  the sum of the updates whose row number is i.  Both are stated for tables of rows of W entries and for tables of
  single numbers, with the row numbers given as an E-by-1 array.
-/
import Idealize.ShloMosaic.PureOps.Ideal.Laws
import Idealize.ShloMosaic.Lib.ValueIdx

noncomputable section

open scoped BigOperators

namespace LibGatherScatter

open Idealize.ShloMosaic Idealize.ShloMosaic.ValueIdx

/-- A signed word clamped to a row number of a table of N rows. -/
def clampRow (N : Nat) (hN : 0 < N) {w : Nat} (v : BitVec w) : Fin N := ⟨min v.toInt.toNat (N - 1), by omega⟩

/-- A word that, read signed, is the row number i is clamped to i. -/
theorem clampRow_of_toInt {N : Nat} (hN : 0 < N) {w : Nat} (v : BitVec w) (i : Fin N) (h : v.toInt = (i.val : ℤ)) :
    clampRow N hN v = i := by
  refine Fin.ext ?_
  show min v.toInt.toNat (N - 1) = i.val
  rw [h, Int.toNat_natCast]
  have := i.isLt
  omega

/-- The one entry of the one-entry list of axes `[1]`, whatever number it is asked for under. -/
theorem getElem_single_one (n : Nat) (hn : n < ([1] : List (Fin 2)).length) : (([1] : List (Fin 2))[n]'hn) = 1 := by
  have h0 : n = 0 := by simpa using hn
  subst h0
  rfl

/-! ## Looking rows up -/

section Gather
variable {α : Type}

/-- The lookup of whole rows of an N-by-W table at an E-by-1 array of row numbers. -/
abbrev rowsDims (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Entry (e, k) of the looked-up rows is entry k of the table's row named by row number e, clamped. -/
theorem gather_rows_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowsDims N E W wf) x idx (ix2 e k) = x (ix2 (clampRow N hN (idx (ix2 e (0 : Fin 1)))) k) := by
  unfold Host.gather
  refine congrArg x (funext fun a => Fin.ext ?_)
  match a with
  | ⟨0, _⟩ =>
    show (rowsDims N E W wf).start (ix2 e k) idx 0 + (rowsDims N E W wf).batchCoord (ix2 e k) 0
      + (rowsDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E W wf).startIndexMap from List.mem_singleton.mpr rfl)]
    have hsi : (rowsDims N E W wf).siIdx (ix2 e k) ⟨List.idxOf (0 : Fin 2) (rowsDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E W wf).start (ix2 e k) idx 1 + (rowsDims N E W wf).batchCoord (ix2 e k) 1
      + (rowsDims N E W wf).offCoord (ix2 e k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N E W wf).startIndexMap from h10)]
    unfold GatherDims.offCoord
    rw [dif_pos (show (1 : Fin 2) ∈ (rowsDims N E W wf).sKept from
      (GatherDims.mem_sKept _ _).mpr ⟨h10, List.not_mem_nil⟩)]
    rw [Nat.zero_add]
    exact congrArg (fun z : Fin 2 => ((ix2 e k z).val : ℕ)) (getElem_single_one _ _)

/-- The lookup of single numbers of a table of N numbers at an E-by-1 array of row numbers. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the looked-up numbers is the table's number named by row number e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  refine congrArg x (funext fun a => Fin.ext ?_)
  obtain rfl : a = 0 := Subsingleton.elim _ _
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating rows -/

/-- An axis is among the axes outside a list exactly when it is not in the list. -/
theorem mem_kept {s : Shape} (axes : List (Fin s.rank)) (a : Fin s.rank) : a ∈ s.kept axes ↔ a ∉ axes := by
  simp [Shape.kept, List.mem_filter, List.mem_finRange]

/-- A rank-1 index set is its one coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section ScatterRows

/-- The accumulation of E update rows into an N-by-W table at an E-by-1 array of row numbers. -/
abbrev rowsScat (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

theorem one_not_mem_zero : ¬ (1 : Fin 2) ∈ ([0] : List (Fin 2)) := by decide

/-- Update (e, k') starts, along the rows, at its row number read signed … -/
theorem rowsScat_start0 : (rowsScat N E W wf).start (ix2 e k') idx 0 = (idx (ix2 e (0 : Fin 1))).toInt := by
  unfold ScatterDims.start
  rw [dif_pos (show (0 : Fin 2) ∈ (rowsScat N E W wf).scatterDimsToOperandDims from List.mem_singleton.mpr rfl)]
  have hsi : (rowsScat N E W wf).siIdx (ix2 e k') ⟨List.idxOf (0 : Fin 2) (rowsScat N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, along a row, at 0; -/
theorem rowsScat_start1 : (rowsScat N E W wf).start (ix2 e k') idx 1 = 0 := by
  unfold ScatterDims.start
  rw [dif_neg (show ¬ (1 : Fin 2) ∈ (rowsScat N E W wf).scatterDimsToOperandDims from one_not_mem_zero)]

/-- its place inside the row window is 0 along the rows … -/
theorem rowsScat_window0 : (rowsScat N E W wf).window (ix2 e k') 0 = 0 := by
  unfold ScatterDims.window
  rw [dif_neg (show ¬ (0 : Fin 2) ∈ (rowsScat N E W wf).sKept from
    fun h => ((mem_kept _ _).mp h) (List.mem_singleton.mpr rfl))]

/-- … and k' along the row. -/
theorem rowsScat_window1 : (rowsScat N E W wf).window (ix2 e k') 1 = k'.val := by
  unfold ScatterDims.window
  rw [dif_pos (show (1 : Fin 2) ∈ (rowsScat N E W wf).sKept from (mem_kept _ _).mpr one_not_mem_zero)]
  exact congrArg (fun z : Fin 2 => ((ix2 e k' z).val : ℕ)) (getElem_single_one _ _)

/-- Update (e, k') lands on entry (i, k) exactly when its row number, read signed, is i and k' is k. -/
theorem rowsScat_resultIdx_iff (i : Fin N) (k : Fin W) :
    (rowsScat N E W wf).resultIdx? (ix2 e k') idx = some (ix2 i k)
      ↔ (idx (ix2 e (0 : Fin 1))).toInt = (i.val : ℤ) ∧ k' = k := by
  have s0 := rowsScat_start0 wf idx e k'
  have s1 := rowsScat_start1 wf idx e k'
  have w0 := rowsScat_window0 wf e k'
  have w1 := rowsScat_window1 wf e k'
  have hi := i.isLt
  have hk := k.isLt
  have hk' := k'.isLt
  unfold ScatterDims.resultIdx?
  split
  · rename_i h
    rw [Option.some.injEq]
    constructor
    · intro hf
      have h0 : ((rowsScat N E W wf).start (ix2 e k') idx 0 + ((rowsScat N E W wf).window (ix2 e k') 0 : ℕ)).toNat = i.val :=
        congrArg (fun f : (⟨2, ![N, W]⟩ : Shape).Idx => (f 0).val) hf
      have h1 : ((rowsScat N E W wf).start (ix2 e k') idx 1 + ((rowsScat N E W wf).window (ix2 e k') 1 : ℕ)).toNat = k.val :=
        congrArg (fun f : (⟨2, ![N, W]⟩ : Shape).Idx => (f 1).val) hf
      have hh := (h 0).1
      rw [s0, w0] at h0 hh
      rw [s1, w1] at h1
      exact ⟨by omega, Fin.ext (by omega)⟩
    · rintro ⟨hI, rfl⟩
      funext a; refine Fin.ext ?_
      match a with
      | ⟨0, _⟩ =>
        show ((rowsScat N E W wf).start (ix2 e k') idx 0 + ((rowsScat N E W wf).window (ix2 e k') 0 : ℕ)).toNat = i.val
        rw [s0, w0, hI]; omega
      | ⟨1, _⟩ =>
        show ((rowsScat N E W wf).start (ix2 e k') idx 1 + ((rowsScat N E W wf).window (ix2 e k') 1 : ℕ)).toNat = k'.val
        rw [s1, w1]; omega
  · rename_i h
    constructor
    · intro hf; exact absurd hf (by simp)
    · rintro ⟨hI, rfl⟩
      exfalso; apply h; intro a
      match a with
      | ⟨0, _⟩ =>
        show 0 ≤ (rowsScat N E W wf).start (ix2 e k') idx 0 + ((rowsScat N E W wf).window (ix2 e k') 0 : ℕ)
          ∧ (rowsScat N E W wf).start (ix2 e k') idx 0 + ((rowsScat N E W wf).window (ix2 e k') 0 : ℕ) < (N : ℤ)
        rw [s0, w0, hI]; omega
      | ⟨1, _⟩ =>
        show 0 ≤ (rowsScat N E W wf).start (ix2 e k') idx 1 + ((rowsScat N E W wf).window (ix2 e k') 1 : ℕ)
          ∧ (rowsScat N E W wf).start (ix2 e k') idx 1 + ((rowsScat N E W wf).window (ix2 e k') 1 : ℕ) < (W : ℤ)
        rw [s1, w1]; omega

/-- Entry (i, k) of the accumulated table, over the extended reals: the table's own entry plus the sum of the
    entries k of the update rows whose row number is i. -/
theorem scatterAdd_rows_apply {φ : FTy} (x : FVec Ideal ⟨2, ![N, W]⟩ φ) (upd : FVec Ideal ⟨2, ![E, W]⟩ φ) (i : Fin N) (k : Fin W) :
    Host.scatterAdd (F := Ideal) (rowsScat N E W wf) x idx upd (ix2 i k)
      = x (ix2 i k) + ∑ e : Fin E, if (idx (ix2 e (0 : Fin 1))).toInt = (i.val : ℤ) then upd (ix2 e k) else 0 := by
  unfold Host.scatterAdd
  rw [Ideal.hostScatterAdd_def]
  unfold Ideal.hostScatterAdd
  refine congrArg (x (ix2 i k) + ·) ?_
  rw [Finset.sum_filter, sum_idx2]
  refine Finset.sum_congr rfl fun e _ => ?_
  simp only [rowsScat_resultIdx_iff wf idx e _ i k]
  by_cases hP : (idx (ix2 e (0 : Fin 1))).toInt = (i.val : ℤ)
  · simp only [hP, true_and]
    rw [Finset.sum_ite_eq' Finset.univ k (fun k' => upd (ix2 e k')), if_pos (Finset.mem_univ k), if_pos trivial]
  · simp only [hP, false_and, if_false, Finset.sum_const_zero]

end ScatterRows

section ScatterVec

/-- The accumulation of E update numbers into a table of N numbers at an E-by-1 array of row numbers. -/
abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem vecScat_start0 : (vecScat N E wf).start (ix1 e) idx 0 = (idx (ix2 e (0 : Fin 1))).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScat_window0 : (vecScat N E wf).window (ix1 e) 0 = 0 := by
  unfold ScatterDims.window
  rw [dif_neg (show ¬ (0 : Fin 1) ∈ (vecScat N E wf).sKept from
    fun h => ((mem_kept _ _).mp h) (List.mem_singleton.mpr rfl))]

/-- Update e lands on entry i exactly when its row number, read signed, is i. -/
theorem vecScat_resultIdx_iff (i : Fin N) :
    (vecScat N E wf).resultIdx? (ix1 e) idx = some (ix1 i) ↔ (idx (ix2 e (0 : Fin 1))).toInt = (i.val : ℤ) := by
  have s0 := vecScat_start0 wf idx e
  have w0 := vecScat_window0 wf e
  have hi := i.isLt
  unfold ScatterDims.resultIdx?
  split
  · rename_i h
    rw [Option.some.injEq]
    constructor
    · intro hf
      have h0 : ((vecScat N E wf).start (ix1 e) idx 0 + ((vecScat N E wf).window (ix1 e) 0 : ℕ)).toNat = i.val :=
        congrArg (fun f : (⟨1, ![N]⟩ : Shape).Idx => (f 0).val) hf
      have hh := (h 0).1
      rw [s0, w0] at h0 hh
      omega
    · intro hI
      funext a; refine Fin.ext ?_
      obtain rfl : a = 0 := Subsingleton.elim _ _
      show ((vecScat N E wf).start (ix1 e) idx 0 + ((vecScat N E wf).window (ix1 e) 0 : ℕ)).toNat = i.val
      rw [s0, w0, hI]; omega
  · rename_i h
    constructor
    · intro hf; exact absurd hf (by simp)
    · intro hI
      exfalso; apply h; intro a
      obtain rfl : a = 0 := Subsingleton.elim _ _
      show 0 ≤ (vecScat N E wf).start (ix1 e) idx 0 + ((vecScat N E wf).window (ix1 e) 0 : ℕ)
        ∧ (vecScat N E wf).start (ix1 e) idx 0 + ((vecScat N E wf).window (ix1 e) 0 : ℕ) < (N : ℤ)
      rw [s0, w0, hI]; omega

/-- Entry i of the accumulated table, over the extended reals: the table's own entry plus the sum of the updates
    whose row number is i. -/
theorem scatterAdd_vec_apply {φ : FTy} (x : FVec Ideal ⟨1, ![N]⟩ φ) (upd : FVec Ideal ⟨1, ![E]⟩ φ) (i : Fin N) :
    Host.scatterAdd (F := Ideal) (vecScat N E wf) x idx upd (ix1 i)
      = x (ix1 i) + ∑ e : Fin E, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vecScat_resultIdx_iff wf idx e i]

end ScatterVec

end LibGatherScatter

end
-- ==== Proof.PaddedSum.lean ====
/-
  The accumulation over the padded edge list equals the accumulation over the edge list itself.

  Entry (r, k) of the accumulated array is zero plus the sum, over the 1605632 positions e of the padded list
  whose start node is r, of weight(e) · feature(e, k).  At the 5632 positions past the end of the edge list both
  factors are the padding value zero, so the term is zero whatever the start node; at the positions before it the
  padded arrays read the arrays they pad.  A sum whose terms vanish from some position on is the sum of the terms
  before that position, so the sum is the one over the 1600000 edges.
-/
import proofs.«122281_j4440996184785_1_alg».proof.Proof.PadReads
import proofs.«122281_j4440996184785_1_alg».proof.Proof.LibSumPad
import proofs.«122281_j4440996184785_1_alg».proof.Proof.LibGatherScatter
import proofs.«122281_j4440996184785_1_alg».proof.Proof.EdgeScale

set_option maxRecDepth 16384

noncomputable section

namespace Cert.KernelIdeal.PaddedSum

open Idealize.ShloMosaic Idealize.ShloMosaic.ValueIdx
open Cert.KernelIdeal Cert.KernelIdeal.Facts₀ Cert.KernelIdeal.Facts Cert.KernelIdeal.PaddedEdges
open Cert.KernelIdeal.PadReads Cert.KernelIdeal.EdgeScale Cert.Coords
open scoped BigOperators

/-- Entry (r, k) of the accumulated array: zero plus the sum of the update rows whose start node is r. -/
theorem accumulate_apply (starts : S1605632.Idx → BitVec 32) (upd : S1605632x64.Idx → EReal) (r : Fin 100000) (k : Fin 64) :
    accumulate (F := Ideal) starts upd (ix2 r k)
      = Ideal.ofBits .f32 0x00000000#32
        + ∑ e : Fin 1605632, if BitVec.toInt (starts (ix1 e)) = (r.val : ℤ) then upd (ix2 e k) else 0 := by
  have h := LibGatherScatter.scatterAdd_rows_apply (N := 100000) (E := 1605632) (W := 64) (w := 32) (φ := .f32)
    scatter_S100000x64_S1605632x1_S1605632x64_1_0_0_1.wf
    (broadcastInDim S1605632x1 ![0] bcast_S1605632_S1605632x1_0 starts)
    (broadcastInDim S100000x64 ![] bcast_S_S100000x64 (constant (F := Ideal) S_ .f32 0x00000000#32)) upd r k
  refine (show accumulate (F := Ideal) starts upd (ix2 r k) = _ from h).trans ?_
  refine congrArg₂ (· + ·) rfl (Finset.sum_congr rfl fun e _ => ?_)
  rw [column_apply]

variable (R : S1600000.Idx → BitVec 32) (W : S1600000.Idx → EReal) (L : S1600000x64.Idx → EReal)

/-- Past the end of the edge list the scaled row is zero. -/
theorem scaled_ge (e : Fin 1605632) (k : Fin 64) (h : 1600000 ≤ e.val) :
    scaled (padWeights (F := Ideal) W) (padFeatures (F := Ideal) L) (ix2 e k) = 0 := by
  show padWeights (F := Ideal) W (ix1 e) * padFeatures (F := Ideal) L (ix2 e k) = 0
  rw [padWeights_ge (F := Ideal) W e h, padFeatures_ge (F := Ideal) L e k h, zeroF_apply, zero_mul]

/-- Before it the scaled row is the edge's weight times its feature row. -/
theorem scaled_lt (e : Fin 1605632) (k : Fin 64) (h : e.val < 1600000) :
    scaled (padWeights (F := Ideal) W) (padFeatures (F := Ideal) L) (ix2 e k)
      = W (ix1 (⟨e.val, h⟩ : Fin 1600000)) * L (ix2 (⟨e.val, h⟩ : Fin 1600000) k) := by
  show padWeights (F := Ideal) W (ix1 e) * padFeatures (F := Ideal) L (ix2 e k) = _
  rw [padWeights_lt (F := Ideal) W e h, padFeatures_lt (F := Ideal) L e k h]

/-- The sum over the padded list is the sum over the edge list. -/
theorem padded_sum (r : Fin 100000) (k : Fin 64) :
    (∑ e : Fin 1605632, if BitVec.toInt (padRows (F := Ideal) R (ix1 e)) = (r.val : ℤ)
        then scaled (padWeights (F := Ideal) W) (padFeatures (F := Ideal) L) (ix2 e k) else 0)
      = ∑ e : Fin 1600000, if BitVec.toInt (R (ix1 e)) = (r.val : ℤ) then W (ix1 e) * L (ix2 e k) else 0 := by
  rw [LibSumPad.sum_eq_sum_castLE (n := 1600000) (N := 1605632) (by norm_num) _ (fun e he => by
    rw [scaled_ge W L e k he, ite_self])]
  refine Finset.sum_congr rfl fun e _ => ?_
  have he : (Fin.castLE (by norm_num : 1600000 ≤ 1605632) e).val < 1600000 := e.isLt
  have hcast : (⟨(Fin.castLE (by norm_num : 1600000 ≤ 1605632) e).val, he⟩ : Fin 1600000) = e := Fin.ext rfl
  rw [scaled_lt W L _ k he, padRows_lt (F := Ideal) R _ he, hcast]

end Cert.KernelIdeal.PaddedSum

end
-- ==== Proof.Entry.lean ====
/-
  The common value of the two programs at one entry (r, k), as a function of the quantities they share: the start
  node of every edge, the weight of every edge, the projected row looked up for every edge, the
  inverse-square-root degree of every node, the projection and the bias:

    zero + the sum over the edges e that start at r of weight(e) · looked(e, k)  +  d(r) · d(r) · h(r, k)  +  bias(k).
-/
import proofs.«122281_j4440996184785_1_alg».proof.Proof.PaddedEdges
import Idealize.ShloMosaic.Lib.ValueIdx
import Idealize.ShloMosaic.PureOps.Ideal

noncomputable section

namespace Cert.Entry

open Idealize.ShloMosaic Idealize.ShloMosaic.ValueIdx Cert.KernelIdeal
open scoped BigOperators

/-- The sum over the edges that start at r of weight(e) · looked(e, k). -/
def edgeSum (starts : S1600000.Idx → BitVec 32) (wts : S1600000.Idx → EReal) (looked : S1600000x64.Idx → EReal)
    (r : Fin 100000) (k : Fin 64) : EReal :=
  ∑ e : Fin 1600000, if BitVec.toInt (starts (ix1 e)) = (r.val : ℤ) then wts (ix1 e) * looked (ix2 e k) else 0

/-- The value at entry (r, k). -/
def entry (starts : S1600000.Idx → BitVec 32) (wts : S1600000.Idx → EReal) (looked : S1600000x64.Idx → EReal)
    (d : S100000.Idx → EReal) (h : S100000x64.Idx → EReal) (bias : S64.Idx → EReal) (r : Fin 100000) (k : Fin 64) : EReal :=
  Ideal.ofBits .f32 0x00000000#32 + edgeSum starts wts looked r k + d (ix1 r) * d (ix1 r) * h (ix2 r k) + bias (ix1 k)

end Cert.Entry

end
-- ==== Proof.KernelEntry.lean ====
/-
  The kernel program's result read at one entry.  The last region's expression at (r, k) is the accumulated array
  there, plus d(r) · d(r) · h(r, k), plus bias(k); the accumulated array there is zero plus the sum over the padded
  edge list, which is the sum over the edge list.
-/
import proofs.«122281_j4440996184785_1_alg».proof.Proof.KernelOut
import proofs.«122281_j4440996184785_1_alg».proof.Proof.PaddedSum
import proofs.«122281_j4440996184785_1_alg».proof.Proof.Entry

set_option maxRecDepth 16384

noncomputable section

namespace Cert.KernelIdeal.KernelEntry

open Idealize.ShloMosaic Idealize.ShloMosaic.ValueIdx
open Cert.KernelIdeal Cert.KernelIdeal.Facts₀ Cert.KernelIdeal.Facts Cert.KernelIdeal.EdgeWeights Cert.KernelIdeal.PaddedEdges
open Cert.KernelIdeal.PadReads Cert.KernelIdeal.PaddedSum Cert.KernelIdeal.KernelOut Cert.Coords Cert.Entry
open scoped BigOperators

/-- The last region's expression at (r, k). -/
theorem combined_apply (agg : S100000x64.Idx → EReal) (d : S100000x1.Idx → EReal) (h : S100000x64.Idx → EReal)
    (b : S1x64.Idx → EReal) (r : Fin 100000) (k : Fin 64) :
    Combine.combined agg d h b (ix2 r k)
      = agg (ix2 r k) + d (ix2 r (0 : Fin 1)) * d (ix2 r (0 : Fin 1)) * h (ix2 r k) + b (ix2 (0 : Fin 1) k) := rfl

/-- The kernel program's result at (r, k) is the common value there. -/
theorem kernel_entry (x : (⟨S100000x128, .f32⟩ : BufTy).Contents (Elt Ideal)) (ei : (⟨S2x1600000, .i32⟩ : BufTy).Contents (Elt Ideal))
    (wt : (⟨S128x64, .f32⟩ : BufTy).Contents (Elt Ideal)) (b : (⟨S64, .f32⟩ : BufTy).Contents (Elt Ideal))
    (r : Fin 100000) (k : Fin 64) :
    kernelOut x ei wt b (ix2 r k)
      = entry (rows ei) (weight ei) (lookedUp (Projection.product x wt) (cols ei)) (invSqrtDeg ei)
          (Projection.product x wt) b r k := by
  unfold kernelOut
  rw [combined_apply, accumulate_apply, padded_sum]
  unfold asColumn asRow
  rw [column_apply, row_apply]
  rfl

end Cert.KernelIdeal.KernelEntry

end
-- ==== Proof.RefStages.lean ====
/-
  The reference program's stages that it shares with the kernel program, each shown to be the function of the
  edge list (or of x and W) that the kernel's side is stated with: the endpoint lists, the degrees, their inverse
  square roots, the wrapped endpoint columns, the edge weights, the projection x · W as a sum over the
  contracted axis, and the projected row looked up for every edge.  The two printed programs name their
  dimension records separately; the records are the same data.
-/
import proofs.«122281_j4440996184785_1_alg».proof.Proof.Gen.ReferenceIdeal.Run
import proofs.«122281_j4440996184785_1_alg».proof.Proof.Gen.ReferenceIdeal.Read
import proofs.«122281_j4440996184785_1_alg».proof.Proof.EdgeWeights
import proofs.«122281_j4440996184785_1_alg».proof.Proof.PaddedEdges
import proofs.«122281_j4440996184785_1_alg».proof.Proof.Projection

set_option maxRecDepth 16384

noncomputable section

namespace Cert.RefStages

open Idealize.ShloMosaic Idealize.ShloMosaic.ValueIdx
open Cert.ReferenceIdeal.Read Cert.KernelIdeal.EdgeWeights Cert.KernelIdeal.PaddedEdges Cert.Coords
open scoped BigOperators

abbrev EdgeList := (⟨Cert.KernelIdeal.S2x1600000, .i32⟩ : BufTy).Contents (Elt Ideal)
abbrev Features := (⟨Cert.KernelIdeal.S100000x128, .f32⟩ : BufTy).Contents (Elt Ideal)
abbrev Weights := (⟨Cert.KernelIdeal.S128x64, .f32⟩ : BufTy).Contents (Elt Ideal)

/-! ## The dimension records -/

theorem scatterVec_eq : Cert.ReferenceIdeal.scatter_S100000_S1600000x1_S1600000_n_0_0_1
    = Cert.KernelIdeal.scatter_S100000_S1600000x1_S1600000_n_0_0_1 := rfl
theorem gatherVec_eq : Cert.ReferenceIdeal.gather_S100000_S1600000x1_S1600000_n_0_n_n_0_1_1
    = Cert.KernelIdeal.gather_S100000_S1600000x1_S1600000_n_0_n_n_0_1_1 := rfl
theorem gatherRows_eq : Cert.ReferenceIdeal.gather_S100000x64_S1600000x1_S1600000x64_1_0_n_n_0_1_164
    = Cert.KernelIdeal.gather_S100000x64_S1600000x1_S1600000x64_1_0_n_n_0_1_164 := rfl

/-! ## Functions of the edge list -/

theorem starts (ei : EdgeList) : val_main_v1 (F := Ideal) ei = rows ei := rfl
theorem ends (ei : EdgeList) : val_main_v3 (F := Ideal) ei = cols ei := rfl

theorem degrees (ei : EdgeList) : val_main_v7 (F := Ideal) ei = degree ei := by
  unfold val_main_v7 degree
  rw [scatterVec_eq]
  rfl

theorem invSqrt (ei : EdgeList) : val_main_v9 (F := Ideal) ei = invSqrtDeg ei := by
  unfold val_main_v9 invSqrtDeg
  rw [degrees]
  rfl

theorem startsWrapped (ei : EdgeList) : val_main_v15 (F := Ideal) ei = column (wrapped (rows ei)) := rfl
theorem endsWrapped (ei : EdgeList) : val_main_v22 (F := Ideal) ei = column (wrapped (cols ei)) := rfl
theorem endsWrapped' (ei : EdgeList) : val_main_v35 (F := Ideal) ei = column (wrapped (cols ei)) := rfl
theorem startsColumn (ei : EdgeList) : val_main_v40 (F := Ideal) ei = column (rows ei) := rfl

theorem weights (ei : EdgeList) : val_main_v27 (F := Ideal) ei = weight ei := by
  unfold val_main_v27 val_main_v24 val_main_v16 val_main_v23 weight
  rw [gatherVec_eq, invSqrt, startsWrapped, endsWrapped]
  rfl

/-! ## The projection and the looked-up rows -/

theorem projection (x : Features) (wt : Weights) :
    val_main_v28 (F := Ideal) x wt = Cert.KernelIdeal.Projection.product x wt := by
  funext i
  rw [val_main_v28_apply]
  unfold Cert.KernelIdeal.Projection.product
  refine Finset.sum_congr rfl fun k _ => ?_
  have el : lidx_main_v28 i k = ix2 (row2 i) k :=
    funext fun a => Fin.ext (by match a with | ⟨0, _⟩ => rfl | ⟨1, _⟩ => rfl)
  have er : ridx_main_v28 i k = ix2 k (col2 i) :=
    funext fun a => Fin.ext (by match a with | ⟨0, _⟩ => rfl | ⟨1, _⟩ => rfl)
  rw [el, er]

theorem looked (x : Features) (ei : EdgeList) (wt : Weights) :
    val_main_v36 (F := Ideal) x ei wt = lookedUp (Cert.KernelIdeal.Projection.product x wt) (cols ei) := by
  unfold val_main_v36 lookedUp
  rw [gatherRows_eq, projection, endsWrapped']

end Cert.RefStages

end
-- ==== Proof.RefEntry.lean ====
/-
  The reference program's result read at one entry.  Its last three additions and the two products before them
  are entrywise; its two broadcasts of d · d and of the bias read their one row or column; its accumulation reads,
  at (r, k), zero plus the sum over the edges that start at r of the update rows, and an update row is the edge's
  weight times the projected row looked up for it.
-/
import proofs.«122281_j4440996184785_1_alg».proof.Proof.RefStages
import proofs.«122281_j4440996184785_1_alg».proof.Proof.Entry
import proofs.«122281_j4440996184785_1_alg».proof.Proof.LibGatherScatter
import proofs.«122281_j4440996184785_1_alg».proof.Proof.PadReads

set_option maxRecDepth 16384

noncomputable section

namespace Cert.RefEntry

open Idealize.ShloMosaic Idealize.ShloMosaic.ValueIdx
open Cert.ReferenceIdeal.Read Cert.KernelIdeal.EdgeWeights Cert.KernelIdeal.PaddedEdges Cert.KernelIdeal.PadReads
open Cert.RefStages Cert.Entry Cert.Coords
open scoped BigOperators

abbrev Bias := (⟨Cert.KernelIdeal.S64, .f32⟩ : BufTy).Contents (Elt Ideal)

variable (x : Features) (ei : EdgeList) (wt : Weights) (b : Bias)

/-- The accumulated array at (r, k): zero plus the sum over the edges that start at r. -/
theorem agg_apply (r : Fin 100000) (k : Fin 64) :
    val_main_v41 (F := Ideal) x ei wt (ix2 r k)
      = Ideal.ofBits .f32 0x00000000#32
        + edgeSum (rows ei) (weight ei) (lookedUp (Cert.KernelIdeal.Projection.product x wt) (cols ei)) r k := by
  have h := LibGatherScatter.scatterAdd_rows_apply (N := 100000) (E := 1600000) (W := 64) (w := 32) (φ := .f32)
    Cert.ReferenceIdeal.scatter_S100000x64_S1600000x1_S1600000x64_1_0_0_1.wf
    (val_main_v40 (F := Ideal) ei) (val_main_v39 (F := Ideal)) (val_main_v38 (F := Ideal) x ei wt) r k
  refine (show val_main_v41 (F := Ideal) x ei wt (ix2 r k) = _ from h).trans ?_
  unfold edgeSum
  refine congrArg₂ (· + ·) ?_ (Finset.sum_congr rfl fun e _ => ?_)
  · rw [val_main_v39_apply]; rfl
  · have hi : idx_main_v29 (idx_main_v37 (ix2 e k)) = ix1 e :=
      funext fun a => Fin.ext (by match a with | ⟨0, _⟩ => rfl)
    rw [startsColumn, val_main_v38_apply, val_main_v37_apply, val_main_v29_apply, weights, looked, hi]
    unfold column
    rw [column_apply]
    rfl

/-- The reference program's result at (r, k) is the common value there. -/
theorem ref_entry (r : Fin 100000) (k : Fin 64) :
    val_main_v49 (F := Ideal) x ei wt b (ix2 r k)
      = entry (rows ei) (weight ei) (lookedUp (Cert.KernelIdeal.Projection.product x wt) (cols ei)) (invSqrtDeg ei)
          (Cert.KernelIdeal.Projection.product x wt) b r k := by
  have i1 : idx_main_v43 (idx_main_v44 (ix2 r k)) = ix1 r :=
    funext fun a => Fin.ext (by match a with | ⟨0, _⟩ => rfl)
  have i2 : idx_main_v47 (idx_main_v48 (ix2 r k)) = ix1 k :=
    funext fun a => Fin.ext (by match a with | ⟨0, _⟩ => rfl)
  rw [val_main_v49_apply, val_main_v46_apply, val_main_v45_apply, val_main_v44_apply, val_main_v43_apply,
    val_main_v42_apply, val_main_v48_apply, val_main_v47_apply, i1, i2, invSqrt, projection, agg_apply]
  rfl

end Cert.RefEntry

end
-- ==== Proof.lean ====
/-
  A graph-convolution layer: with d the inverse square root of the node degrees (counted over the start nodes of
  the edge list) and h = x · W,

    out(r, k) = the sum over the edges e from r to c, r ≠ c, of d(r) · d(c) · h(c, k)  +  d(r)² · h(r, k)  +  bias(k).

  The kernel program computes h in blocks of rows, looks a row of h up for every edge, pads the edge list to a
  multiple of its block length with zero weights, zero rows and start node zero, scales the rows blockwise, lets the
  host accumulate them, and adds the last two terms blockwise; the reference does every step on whole arrays.
  Over the extended reals the two results agree entry by entry: the degrees, the weights and the looked-up rows are
  the same functions of the arguments on both sides, a blocked matrix product is the same sum over the contracted
  axis, and the padded positions contribute 0 · 0 = 0 to the accumulation, whatever row they land in.  No step
  uses that the inputs are finite.
-/
import proofs.«122281_j4440996184785_1_alg».proof.Defs
import proofs.«122281_j4440996184785_1_alg».proof.Proof.Gen.Kernel
import proofs.«122281_j4440996184785_1_alg».proof.Proof.Gen.Kernel.Skeleton
import proofs.«122281_j4440996184785_1_alg».proof.Proof.Gen.Kernel.Launch
import proofs.«122281_j4440996184785_1_alg».proof.Proof.Gen.Kernel.Points
import proofs.«122281_j4440996184785_1_alg».proof.Proof.Gen.Kernel.Frame
import proofs.«122281_j4440996184785_1_alg».proof.Proof.Gen.KernelIdeal
import proofs.«122281_j4440996184785_1_alg».proof.Proof.Gen.KernelIdeal.Skeleton
import proofs.«122281_j4440996184785_1_alg».proof.Proof.Gen.KernelIdeal.Launch
import proofs.«122281_j4440996184785_1_alg».proof.Proof.Gen.KernelIdeal.Points
import proofs.«122281_j4440996184785_1_alg».proof.Proof.Gen.KernelIdeal.Frame
import proofs.«122281_j4440996184785_1_alg».proof.Proof.Gen.ReferenceIdeal
import proofs.«122281_j4440996184785_1_alg».proof.Proof.Gen.ReferenceIdeal.Run
import proofs.«122281_j4440996184785_1_alg».proof.Proof.Gen.ReferenceIdeal.Read
import proofs.«122281_j4440996184785_1_alg».proof.Proof.Gen.Pre_finite_inputs
import proofs.«122281_j4440996184785_1_alg».proof.Proof.KernelRun
import proofs.«122281_j4440996184785_1_alg».proof.Proof.HostReads
import proofs.«122281_j4440996184785_1_alg».proof.Proof.KernelEntry
import proofs.«122281_j4440996184785_1_alg».proof.Proof.RefEntry
import Idealize.ShloMosaic.Adequacy
import Idealize.ShloMosaic.Init

noncomputable section

namespace Cert.Proof

open Idealize.ShloMosaic Idealize.ShloMosaic.ValueIdx Idealize.SL.Sem
open Cert.KernelIdeal.KernelOut Cert.Coords

/-- The word-level kernel program runs to the end without a fault and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- The two programs' results are the same array: at every entry both are the common value. -/
theorem value_eq (x : (⟨Cert.KernelIdeal.S100000x128, .f32⟩ : BufTy).Contents (Elt Ideal))
    (ei : (⟨Cert.KernelIdeal.S2x1600000, .i32⟩ : BufTy).Contents (Elt Ideal))
    (wt : (⟨Cert.KernelIdeal.S128x64, .f32⟩ : BufTy).Contents (Elt Ideal))
    (b : (⟨Cert.KernelIdeal.S64, .f32⟩ : BufTy).Contents (Elt Ideal)) :
    kernelOut x ei wt b = Cert.ReferenceIdeal.Read.val_main_v49 (F := Ideal) x ei wt b := by
  funext i
  obtain ⟨r, k, rfl⟩ : ∃ (r : Fin 100000) (k : Fin 64), i = ix2 r k := ⟨row2 i, col2 i, eq_ix2_rc i⟩
  rw [Cert.KernelIdeal.KernelEntry.kernel_entry, Cert.RefEntry.ref_entry]

/-- From memories that agree on the arguments both idealized programs run to the end and return the same array. -/
theorem algebraic : Cert.algebraic_KernelIdeal_ReferenceIdeal := by
  intro m ρ m' ρ' _ hagree
  refine ⟨fun c => kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HostReads.kernel_value m ρ c), (h c).2⟩)
      (Cert.KernelIdeal.KernelRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2]
    exact (value_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
